-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8 : Shape := ⟨1, ![8]⟩
abbrev S8x64x512 : Shape := ⟨3, ![8, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg6
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x512 .f32) (main_arg1 : IVec S8 32) (main_arg2 : FVec F S8x64x512 .f32) (main_arg3 : IVec S8 32) (main_arg4 : FVec F S1024x640 .f32) (main_arg5 : FVec F S640 .f32) (main_arg6 : FVec F S640x1024 .f32) (main_arg7 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x640 .f32 := Host.absf main_arg4
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg5
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg6 main_arg7 main_v13 main_v16
-- ==== Kernel.lean ====
abbrev S8x256x512 : Shape := ⟨3, ![8, 256, 512]⟩
abbrev S8 : Shape := ⟨1, ![8]⟩
abbrev S8x64x512 : Shape := ⟨3, ![8, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S2048x512 : Shape := ⟨2, ![2048, 512]⟩
abbrev S2048x640 : Shape := ⟨2, ![2048, 640]⟩
abbrev S256x512 : Shape := ⟨2, ![256, 512]⟩
abbrev S256x640 : Shape := ⟨2, ![256, 640]⟩
abbrev S8x256x640 : Shape := ⟨3, ![8, 256, 640]⟩
abbrev S512x512 : Shape := ⟨2, ![512, 512]⟩
abbrev S128x512 : Shape := ⟨2, ![128, 512]⟩
abbrev S128x640 : Shape := ⟨2, ![128, 640]⟩
abbrev S8x64x640 : Shape := ⟨3, ![8, 64, 640]⟩
abbrev S8x256x64x1024 : Shape := ⟨4, ![8, 256, 64, 1024]⟩
abbrev S1x32x640 : Shape := ⟨3, ![1, 32, 640]⟩
abbrev S1x64x640 : Shape := ⟨3, ![1, 64, 640]⟩
abbrev S1x32x64x1024 : Shape := ⟨4, ![1, 32, 64, 1024]⟩
abbrev S32x640 : Shape := ⟨2, ![32, 640]⟩
abbrev S64x640 : Shape := ⟨2, ![64, 640]⟩
abbrev S32x1x640 : Shape := ⟨3, ![32, 1, 640]⟩
abbrev S32x64x640 : Shape := ⟨3, ![32, 64, 640]⟩
abbrev S1x1x640 : Shape := ⟨3, ![1, 1, 640]⟩
abbrev S2048x1024 : Shape := ⟨2, ![2048, 1024]⟩
abbrev S32x64x1024 : Shape := ⟨3, ![32, 64, 1024]⟩
abbrev S1x1x1024 : Shape := ⟨3, ![1, 1, 1024]⟩
abbrev S131072x1024 : Shape := ⟨2, ![131072, 1024]⟩

abbrev nBuf : Space → Nat
  | .hbm => 19
  | .vmem => 19
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S512x640, .f32⟩
  | .hbm, ⟨9, _⟩ => ⟨S512x640, .f32⟩
  | .hbm, ⟨10, _⟩ => ⟨S2048x512, .f32⟩
  | .hbm, ⟨11, _⟩ => ⟨S2048x640, .f32⟩
  | .hbm, ⟨12, _⟩ => ⟨S8x256x640, .f32⟩
  | .hbm, ⟨13, _⟩ => ⟨S512x512, .f32⟩
  | .hbm, ⟨14, _⟩ => ⟨S512x640, .f32⟩
  | .hbm, ⟨15, _⟩ => ⟨S8x64x640, .f32⟩
  | .hbm, ⟨16, _⟩ => ⟨S640x1024, .bf16⟩
  | .hbm, ⟨17, _⟩ => ⟨S8x256x64x1024, .f32⟩
  | .hbm, ⟨18, _⟩ => ⟨S131072x1024, .f32⟩
  | .local _ .vmem, ⟨0, _⟩ => ⟨S256x512, .f32⟩
  | .local _ .vmem, ⟨1, _⟩ => ⟨S256x512, .f32⟩
  | .local _ .vmem, ⟨2, _⟩ => ⟨S512x640, .f32⟩
  | .local _ .vmem, ⟨3, _⟩ => ⟨S256x640, .f32⟩
  | .local _ .vmem, ⟨4, _⟩ => ⟨S256x640, .f32⟩
  | .local _ .vmem, ⟨5, _⟩ => ⟨S128x512, .f32⟩
  | .local _ .vmem, ⟨6, _⟩ => ⟨S128x512, .f32⟩
  | .local _ .vmem, ⟨7, _⟩ => ⟨S512x640, .f32⟩
  | .local _ .vmem, ⟨8, _⟩ => ⟨S128x640, .f32⟩
  | .local _ .vmem, ⟨9, _⟩ => ⟨S128x640, .f32⟩
  | .local _ .vmem, ⟨10, _⟩ => ⟨S1x32x640, .f32⟩
  | .local _ .vmem, ⟨11, _⟩ => ⟨S1x32x640, .f32⟩
  | .local _ .vmem, ⟨12, _⟩ => ⟨S1x64x640, .f32⟩
  | .local _ .vmem, ⟨13, _⟩ => ⟨S1x64x640, .f32⟩
  | .local _ .vmem, ⟨14, _⟩ => ⟨S640, .f32⟩
  | .local _ .vmem, ⟨15, _⟩ => ⟨S640x1024, .bf16⟩
  | .local _ .vmem, ⟨16, _⟩ => ⟨S1024, .f32⟩
  | .local _ .vmem, ⟨17, _⟩ => ⟨S1x32x64x1024, .f32⟩
  | .local _ .vmem, ⟨18, _⟩ => ⟨S1x32x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S640x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x32x64x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S1024x640_S512x640_0_0 : S1024x640.Slices ![0, 0] S512x640
  slices_S1024x640_S512x640_512_0 : S1024x640.Slices ![512, 0] S512x640
  shapeCasts_S8x256x512_S2048x512 : S8x256x512.ShapeCasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S256x640_S256x640_0_0 : ∀ a, (![0, 0] : Fin 2 → Nat) a + S256x640.size a ≤ S256x640.size a
  h_S256x640 : 0 < S256x640.numel
  shapeCasts_S2048x640_S8x256x640 : S2048x640.ShapeCasts S8x256x640
  shapeCasts_S8x64x512_S512x512 : S8x64x512.ShapeCasts S512x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x640_S128x640_0_0 : ∀ a, (![0, 0] : Fin 2 → Nat) a + S128x640.size a ≤ S128x640.size a
  h_S128x640 : 0 < S128x640.numel
  shapeCasts_S512x640_S8x64x640 : S512x640.ShapeCasts S8x64x640
  bitsLt_bf16_f32 : FTy.bits .bf16 < FTy.bits .f32
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S640_S640_0 : ∀ a, (![0] : Fin 1 → Nat) a + S640.size a ≤ S640.size a
  h_S640 : 0 < S640.numel
  shapeCasts_S32x640_S32x1x640 : S32x640.ShapeCasts S32x1x640
  shapeCasts_S64x640_S1x64x640 : S64x640.ShapeCasts S1x64x640
  broadcasts_S32x1x640_S32x64x640 : S32x1x640.Broadcasts S32x64x640
  broadcasts_S1x64x640_S32x64x640 : S1x64x640.Broadcasts S32x64x640
  shapeCasts_S640_S1x1x640 : S640.ShapeCasts S1x1x640
  broadcasts_S1x1x640_S32x64x640 : S1x1x640.Broadcasts S32x64x640
  shapeCasts_S32x64x640_S2048x640 : S32x64x640.ShapeCasts S2048x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  shapeCasts_S2048x1024_S32x64x1024 : S2048x1024.ShapeCasts S32x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S32x64x1024 : S1x1x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  shapeCasts_S8x256x64x1024_S131072x1024 : S8x256x64x1024.ShapeCasts S131072x1024
  dot_S256x512_S512x640_S256x640_1_0_0_1_n_n_wf : DotDims.WF S256x512 S512x640 S256x640 [1] [0] [0] [1] [] []
  dot_S128x512_S512x640_S128x640_1_0_0_1_n_n_wf : DotDims.WF S128x512 S512x640 S128x640 [1] [0] [0] [1] [] []
  dot_S2048x640_S640x1024_S2048x1024_1_0_0_1_n_n_wf : DotDims.WF S2048x640 S640x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .f32 = 32 ∨ (Rect.block (s := S512x640) S512x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x640.size a ≤ S2048x640.size a
  hwx0_2 : ∀ i : grid0.Coords, EltTy.bits .f32 = 32 ∨ (Rect.block (s := S2048x640) S256x640.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S512x512.size a
  hwx1_0 : ∀ i : grid1.Coords, EltTy.bits .f32 = 32 ∨ (Rect.block (s := S512x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x640.size a ≤ S512x640.size a
  hwx1_1 : ∀ i : grid1.Coords, EltTy.bits .f32 = 32 ∨ (Rect.block (s := S512x640) S512x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x640.size a ≤ S512x640.size a
  hwx1_2 : ∀ i : grid1.Coords, EltTy.bits .f32 = 32 ∨ (Rect.block (s := S512x640) S128x640.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x640.size a ≤ S8x256x640.size a
  hwx2_0 : ∀ i : grid2.Coords, EltTy.bits .f32 = 32 ∨ (Rect.block (s := S8x256x640) S1x32x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x640.size a ≤ S8x64x640.size a
  hwx2_1 : ∀ i : grid2.Coords, EltTy.bits .f32 = 32 ∨ (Rect.block (s := S8x64x640) S1x64x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640.size a ≤ S640.size a
  hwx2_2 : ∀ i : grid2.Coords, EltTy.bits .f32 = 32 ∨ (Rect.block (s := S640) S640.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S640x1024.size a ≤ S640x1024.size a
  hwx2_3 : ∀ i : grid2.Coords, EltTy.bits .bf16 = 32 ∨ (Rect.block (s := S640x1024) S640x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x32x64x1024.size a ≤ S8x256x64x1024.size a
  hwx2_5 : ∀ i : grid2.Coords, EltTy.bits .f32 = 32 ∨ (Rect.block (s := S8x256x64x1024) S1x32x64x1024.size (cc2_transform_5 i) (hinb2_5 i)).WholeWords (EltTy.packing .f32)

variable [Facts₀]

def dot_S256x512_S512x640_S256x640_1_0_0_1_n_n : DotDims S256x512 S512x640 S256x640 where
  lhsContracting := [1]
  rhsContracting := [0]
  lhsNonContracting := [0]
  rhsNonContracting := [1]
  lhsBatch := []
  rhsBatch := []
  wf := dot_S256x512_S512x640_S256x640_1_0_0_1_n_n_wf
def dot_S128x512_S512x640_S128x640_1_0_0_1_n_n : DotDims S128x512 S512x640 S128x640 where
  lhsContracting := [1]
  rhsContracting := [0]
  lhsNonContracting := [0]
  rhsNonContracting := [1]
  lhsBatch := []
  rhsBatch := []
  wf := dot_S128x512_S512x640_S128x640_1_0_0_1_n_n_wf
def dot_S2048x640_S640x1024_S2048x1024_1_0_0_1_n_n : DotDims S2048x640 S640x1024 S2048x1024 where
  lhsContracting := [1]
  rhsContracting := [0]
  lhsNonContracting := [0]
  rhsNonContracting := [1]
  lhsBatch := []
  rhsBatch := []
  wf := dot_S2048x640_S640x1024_S2048x1024_1_0_0_1_n_n_wf

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x32x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S640x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x32x64x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x256x512 : Shape := ⟨3, ![8, 256, 512]⟩
abbrev S8 : Shape := ⟨1, ![8]⟩
abbrev S8x64x512 : Shape := ⟨3, ![8, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S8x256x640 : Shape := ⟨3, ![8, 256, 640]⟩
abbrev S8x64x640 : Shape := ⟨3, ![8, 64, 640]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S1x1x1x640 : Shape := ⟨4, ![1, 1, 1, 640]⟩
abbrev S_ : Shape := ⟨0, ![]⟩
abbrev S8x256x64x1024 : Shape := ⟨4, ![8, 256, 64, 1024]⟩
abbrev S1x1x1x1024 : Shape := ⟨4, ![1, 1, 1, 1024]⟩
abbrev S131072x1024 : Shape := ⟨2, ![131072, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S512x640, .f32⟩
  | .hbm, ⟨9, _⟩ => ⟨S8x256x640, .f32⟩
  | .hbm, ⟨10, _⟩ => ⟨S512x640, .f32⟩
  | .hbm, ⟨11, _⟩ => ⟨S8x64x640, .f32⟩
  | .hbm, ⟨12, _⟩ => ⟨S8x256x1x640, .f32⟩
  | .hbm, ⟨13, _⟩ => ⟨S8x1x64x640, .f32⟩
  | .hbm, ⟨14, _⟩ => ⟨S8x256x64x640, .f32⟩
  | .hbm, ⟨15, _⟩ => ⟨S8x256x64x640, .f32⟩
  | .hbm, ⟨16, _⟩ => ⟨S8x256x64x640, .f32⟩
  | .hbm, ⟨17, _⟩ => ⟨S1x1x1x640, .f32⟩
  | .hbm, ⟨18, _⟩ => ⟨S8x256x64x640, .f32⟩
  | .hbm, ⟨19, _⟩ => ⟨S8x256x64x640, .f32⟩
  | .hbm, ⟨20, _⟩ => ⟨S_, .f32⟩
  | .hbm, ⟨21, _⟩ => ⟨S8x256x64x640, .f32⟩
  | .hbm, ⟨22, _⟩ => ⟨S8x256x64x640, .f32⟩
  | .hbm, ⟨23, _⟩ => ⟨S8x256x64x1024, .f32⟩
  | .hbm, ⟨24, _⟩ => ⟨S1x1x1x1024, .f32⟩
  | .hbm, ⟨25, _⟩ => ⟨S8x256x64x1024, .f32⟩
  | .hbm, ⟨26, _⟩ => ⟨S8x256x64x1024, .f32⟩
  | .hbm, ⟨27, _⟩ => ⟨S131072x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  slices_S1024x640_S512x640_0_0 : S1024x640.Slices ![0, 0] S512x640
  slices_S1024x640_S512x640_512_0 : S1024x640.Slices ![512, 0] S512x640
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S640_S1x1x1x640_3 : S640.BroadcastsInDim S1x1x1x640 (![3] : Fin 1 → Fin S1x1x1x640.rank)
  bcast_S1x1x1x640_S8x256x64x640_0_1_2_3 : S1x1x1x640.BroadcastsInDim S8x256x64x640 (![0, 1, 2, 3] : Fin 4 → Fin S8x256x64x640.rank)
  bcast_S_S8x256x64x640 : S_.BroadcastsInDim S8x256x64x640 (![] : Fin 0 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  shapeCasts_S8x256x64x1024_S131072x1024 : S8x256x64x1024.ShapeCasts S131072x1024
  dot_S8x256x512_S512x640_S8x256x640_2_0_01_1_n_n_wf : DotDims.WF S8x256x512 S512x640 S8x256x640 [2] [0] [0, 1] [1] [] []
  dot_S8x64x512_S512x640_S8x64x640_2_0_01_1_n_n_wf : DotDims.WF S8x64x512 S512x640 S8x64x640 [2] [0] [0, 1] [1] [] []
  dot_S8x256x64x640_S640x1024_S8x256x64x1024_3_0_012_1_n_n_wf : DotDims.WF S8x256x64x640 S640x1024 S8x256x64x1024 [3] [0] [0, 1, 2] [1] [] []

variable [Facts₀]

def dot_S8x256x512_S512x640_S8x256x640_2_0_01_1_n_n : DotDims S8x256x512 S512x640 S8x256x640 where
  lhsContracting := [2]
  rhsContracting := [0]
  lhsNonContracting := [0, 1]
  rhsNonContracting := [1]
  lhsBatch := []
  rhsBatch := []
  wf := dot_S8x256x512_S512x640_S8x256x640_2_0_01_1_n_n_wf
def dot_S8x64x512_S512x640_S8x64x640_2_0_01_1_n_n : DotDims S8x64x512 S512x640 S8x64x640 where
  lhsContracting := [2]
  rhsContracting := [0]
  lhsNonContracting := [0, 1]
  rhsNonContracting := [1]
  lhsBatch := []
  rhsBatch := []
  wf := dot_S8x64x512_S512x640_S8x64x640_2_0_01_1_n_n_wf
def dot_S8x256x64x640_S640x1024_S8x256x64x1024_3_0_012_1_n_n : DotDims S8x256x64x640 S640x1024 S8x256x64x1024 where
  lhsContracting := [3]
  rhsContracting := [0]
  lhsNonContracting := [0, 1, 2]
  rhsNonContracting := [1]
  lhsBatch := []
  rhsBatch := []
  wf := dot_S8x256x64x640_S640x1024_S8x256x64x1024_3_0_012_1_n_n_wf

class Facts : Prop extends Facts₀ where

variable [Facts]
-- ==== Proof.JoinerSpec.lean ====
/-
  The joint network of a transducer, as one function of its argument arrays over the extended reals.

  For batch b, source position t, target position u and output channel o:
    enc(b,t,h)  = Σ_k src(b,t,k) · W1(k,h)          (the source half of the first layer: rows 0..511 of W1)
    pred(b,u,h) = Σ_k tgt(b,u,k) · W1(512+k,h)      (the target half: rows 512..1023 of W1)
    joint(b,t,u,o) = Σ_h max(enc(b,t,h) + pred(b,u,h) + b1(h), 0) · W2(h,o) + b2(o).
  The result the programs return is this four-axis array with its three leading axes merged into one of
  8·256·64 = 131072 rows. The floor of the maximum is kept as the f32 zero word: both programs spell it so, and it
  is never evaluated.
-/
import Idealize.ShloMosaic.PureOps.Ideal.Laws
import Idealize.ShloMosaic.Lib.ValueIdx

noncomputable section

open scoped BigOperators

namespace Cert.Joiner

open Idealize.ShloMosaic Idealize.ShloMosaic.ValueIdx

/-- The source projection: row (b, t) of the source encodings against the first 512 rows of the stacked weight. -/
def enc (src : (⟨3, ![8, 256, 512]⟩ : Shape).Idx → EReal) (w1 : (⟨2, ![1024, 640]⟩ : Shape).Idx → EReal)
    (b : Fin 8) (t : Fin 256) (h : Fin 640) : EReal :=
  ∑ k : Fin 512, src (ix3 b t k) * w1 (ix2 (⟨k.val, by omega⟩ : Fin 1024) h)

/-- The target projection: row (b, u) of the target encodings against the last 512 rows of the stacked weight. -/
def pred (tgt : (⟨3, ![8, 64, 512]⟩ : Shape).Idx → EReal) (w1 : (⟨2, ![1024, 640]⟩ : Shape).Idx → EReal)
    (b : Fin 8) (u : Fin 64) (h : Fin 640) : EReal :=
  ∑ k : Fin 512, tgt (ix3 b u k) * w1 (ix2 (⟨512 + k.val, by omega⟩ : Fin 1024) h)

/-- The hidden unit: the two projections and the bias added, floored at zero. -/
def hidden (e p bias : EReal) : EReal := max (e + p + bias) (Ideal.ofBits .f32 0x00000000#32)

/-- The output layer over given projections: Σ_h hidden(E(b,t,h), P(b,u,h), b1 h) · W2(h,o) + b2(o). -/
def outAt (E : Fin 8 → Fin 256 → Fin 640 → EReal) (P : Fin 8 → Fin 64 → Fin 640 → EReal)
    (b1 : (⟨1, ![640]⟩ : Shape).Idx → EReal) (w2 : (⟨2, ![640, 1024]⟩ : Shape).Idx → EReal)
    (b2 : (⟨1, ![1024]⟩ : Shape).Idx → EReal) (b : Fin 8) (t : Fin 256) (u : Fin 64) (o : Fin 1024) : EReal :=
  (∑ h : Fin 640, hidden (E b t h) (P b u h) (b1 (ix1 h)) * w2 (ix2 h o)) + b2 (ix1 o)

/-- The joint network as a four-axis array of the argument arrays. -/
def joint (src : (⟨3, ![8, 256, 512]⟩ : Shape).Idx → EReal) (tgt : (⟨3, ![8, 64, 512]⟩ : Shape).Idx → EReal)
    (w1 : (⟨2, ![1024, 640]⟩ : Shape).Idx → EReal) (b1 : (⟨1, ![640]⟩ : Shape).Idx → EReal)
    (w2 : (⟨2, ![640, 1024]⟩ : Shape).Idx → EReal) (b2 : (⟨1, ![1024]⟩ : Shape).Idx → EReal) :
    (⟨4, ![8, 256, 64, 1024]⟩ : Shape).Idx → EReal :=
  fun i => outAt (enc src w1) (pred tgt w1) b1 w2 b2 (i 0) (i 1) (i 2) (i 3)

theorem joint_ix4 (src : (⟨3, ![8, 256, 512]⟩ : Shape).Idx → EReal) (tgt : (⟨3, ![8, 64, 512]⟩ : Shape).Idx → EReal)
    (w1 : (⟨2, ![1024, 640]⟩ : Shape).Idx → EReal) (b1 : (⟨1, ![640]⟩ : Shape).Idx → EReal)
    (w2 : (⟨2, ![640, 1024]⟩ : Shape).Idx → EReal) (b2 : (⟨1, ![1024]⟩ : Shape).Idx → EReal)
    (b : Fin 8) (t : Fin 256) (u : Fin 64) (o : Fin 1024) :
    joint src tgt w1 b1 w2 b2 (ix4 b t u o) = outAt (enc src w1) (pred tgt w1) b1 w2 b2 b t u o := rfl

end Cert.Joiner

end
-- ==== Proof.RefJoint.lean ====
/-
  The reference computes the joint network. Its two projections are contractions of the encodings with the two
  halves of the stacked weight (rows 0..511 and rows 512..1023, taken as slices); they are broadcast over the
  other sequence's positions, added with the first bias, floored at zero, contracted with the second weight over
  the hidden axis, and the second bias is added. Read at an index (b, t, u, o), one operation at a time, the
  four-axis result before the final reshape is the specification's function.
-/
import proofs.«157974_j88450556494795_2_alg».proof.Proof.Gen.ReferenceIdeal.Read
import proofs.«157974_j88450556494795_2_alg».proof.Proof.JoinerSpec

noncomputable section

open scoped BigOperators

namespace Cert.ReferenceIdeal.RefJoint

open Cert.ReferenceIdeal Cert.ReferenceIdeal.Gen Cert.ReferenceIdeal.Read Idealize.ShloMosaic Idealize.ShloMosaic.ValueIdx

/-- The reference's source projection at (b, t, h). -/
theorem enc_eq (x0 : (⟨S8x256x512, .f32⟩ : BufTy).Contents (Elt Ideal)) (x4 : (⟨S1024x640, .f32⟩ : BufTy).Contents (Elt Ideal))
    (b : Fin 8) (t : Fin 256) (h : Fin 640) :
    val_main_v1 (F := Ideal) x0 x4 (ix3 b t h) = Joiner.enc x0 x4 b t h := by
  rw [val_main_v1_apply]
  unfold Joiner.enc
  refine Finset.sum_congr rfl fun k _ => ?_
  rw [val_main_v0_apply]
  have e1 : lidx_main_v1 (ix3 b t h) k = ix3 b t k :=
    funext fun a => Fin.ext (by match a with | ⟨0, _⟩ => rfl | ⟨1, _⟩ => rfl | ⟨2, _⟩ => rfl)
  have e2 : idx_main_v0 (ridx_main_v1 (ix3 b t h) k) = ix2 (⟨k.val, by omega⟩ : Fin 1024) h :=
    funext fun a => Fin.ext (by match a with | ⟨0, _⟩ => rfl | ⟨1, _⟩ => rfl)
  rw [e1, e2]

/-- The reference's target projection at (b, u, h): the slice starts at row 512 of the stacked weight. -/
theorem pred_eq (x2 : (⟨S8x64x512, .f32⟩ : BufTy).Contents (Elt Ideal)) (x4 : (⟨S1024x640, .f32⟩ : BufTy).Contents (Elt Ideal))
    (b : Fin 8) (u : Fin 64) (h : Fin 640) :
    val_main_v3 (F := Ideal) x2 x4 (ix3 b u h) = Joiner.pred x2 x4 b u h := by
  rw [val_main_v3_apply]
  unfold Joiner.pred
  refine Finset.sum_congr rfl fun k _ => ?_
  rw [val_main_v2_apply]
  have e1 : lidx_main_v3 (ix3 b u h) k = ix3 b u k :=
    funext fun a => Fin.ext (by match a with | ⟨0, _⟩ => rfl | ⟨1, _⟩ => rfl | ⟨2, _⟩ => rfl)
  have e2 : idx_main_v2 (ridx_main_v3 (ix3 b u h) k) = ix2 (⟨512 + k.val, by omega⟩ : Fin 1024) h :=
    funext fun a => Fin.ext (by match a with | ⟨0, _⟩ => rfl | ⟨1, _⟩ => rfl)
  rw [e1, e2]

/-- The reference's hidden unit at (b, t, u, h): the two broadcasts pick the source projection at (b, t, h) and the
    target projection at (b, u, h); the bias is read at h; the floor is the zero word. -/
theorem hidden_eq (x0 : (⟨S8x256x512, .f32⟩ : BufTy).Contents (Elt Ideal)) (x2 : (⟨S8x64x512, .f32⟩ : BufTy).Contents (Elt Ideal))
    (x4 : (⟨S1024x640, .f32⟩ : BufTy).Contents (Elt Ideal)) (x5 : (⟨S640, .f32⟩ : BufTy).Contents (Elt Ideal))
    (b : Fin 8) (t : Fin 256) (u : Fin 64) (h : Fin 640) :
    val_main_v12 (F := Ideal) x0 x2 x4 x5 (ix4 b t u h)
      = Joiner.hidden (Joiner.enc x0 x4 b t h) (Joiner.pred x2 x4 b u h) (x5 (ix1 h)) := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply]
  have e1 : idx_main_v4 (idx_main_v6 (ix4 b t u h)) = ix3 b t h :=
    funext fun a => Fin.ext (by match a with | ⟨0, _⟩ => rfl | ⟨1, _⟩ => rfl | ⟨2, _⟩ => rfl)
  have e2 : idx_main_v5 (idx_main_v7 (ix4 b t u h)) = ix3 b u h :=
    funext fun a => Fin.ext (by match a with | ⟨0, _⟩ => rfl | ⟨1, _⟩ => rfl | ⟨2, _⟩ => rfl)
  have e3 : idx_main_v9 (idx_main_v10 (ix4 b t u h)) = ix1 h :=
    funext fun a => Fin.ext (by match a with | ⟨0, _⟩ => rfl)
  rw [e1, e2, e3, enc_eq, pred_eq]
  rfl

/-- The reference's four-axis result, before its last reshape, is the joint network of the arguments. -/
theorem joint_eq (x0 : (⟨S8x256x512, .f32⟩ : BufTy).Contents (Elt Ideal)) (x2 : (⟨S8x64x512, .f32⟩ : BufTy).Contents (Elt Ideal))
    (x4 : (⟨S1024x640, .f32⟩ : BufTy).Contents (Elt Ideal)) (x5 : (⟨S640, .f32⟩ : BufTy).Contents (Elt Ideal))
    (x6 : (⟨S640x1024, .f32⟩ : BufTy).Contents (Elt Ideal)) (x7 : (⟨S1024, .f32⟩ : BufTy).Contents (Elt Ideal)) :
    val_main_v16 (F := Ideal) x0 x2 x4 x5 x6 x7 = Joiner.joint x0 x2 x4 x5 x6 x7 := by
  funext i
  obtain ⟨b, t, u, o, rfl⟩ : ∃ (b : Fin 8) (t : Fin 256) (u : Fin 64) (o : Fin 1024), i = ix4 b t u o :=
    ⟨i 0, i 1, i 2, i 3, eq_ix4 i⟩
  rw [val_main_v16_apply, val_main_v13_apply, val_main_v15_apply, val_main_v14_apply, Joiner.joint_ix4]
  unfold Joiner.outAt
  have e3 : idx_main_v14 (idx_main_v15 (ix4 b t u o)) = ix1 o :=
    funext fun a => Fin.ext (by match a with | ⟨0, _⟩ => rfl)
  rw [e3]
  refine congrArg (· + x7 (ix1 o)) (Finset.sum_congr rfl fun k _ => ?_)
  have e1 : lidx_main_v13 (ix4 b t u o) k = ix4 b t u k :=
    funext fun a => Fin.ext (by match a with | ⟨0, _⟩ => rfl | ⟨1, _⟩ => rfl | ⟨2, _⟩ => rfl | ⟨3, _⟩ => rfl)
  have e2 : ridx_main_v13 (ix4 b t u o) k = ix2 k o :=
    funext fun a => Fin.ext (by match a with | ⟨0, _⟩ => rfl | ⟨1, _⟩ => rfl)
  rw [e1, e2, hidden_eq]

/-- The reference's result: the joint network with its three leading axes merged into rows. -/
theorem result_eq (x0 : (⟨S8x256x512, .f32⟩ : BufTy).Contents (Elt Ideal)) (x2 : (⟨S8x64x512, .f32⟩ : BufTy).Contents (Elt Ideal))
    (x4 : (⟨S1024x640, .f32⟩ : BufTy).Contents (Elt Ideal)) (x5 : (⟨S640, .f32⟩ : BufTy).Contents (Elt Ideal))
    (x6 : (⟨S640x1024, .f32⟩ : BufTy).Contents (Elt Ideal)) (x7 : (⟨S1024, .f32⟩ : BufTy).Contents (Elt Ideal)) :
    val_main_v17 (F := Ideal) x0 x2 x4 x5 x6 x7
      = shapeCast S131072x1024 (Joiner.joint x0 x2 x4 x5 x6 x7) shapeCasts_S8x256x64x1024_S131072x1024 := by
  unfold val_main_v17
  rw [joint_eq]

end Cert.ReferenceIdeal.RefJoint

end
-- ==== Proof.KernelRun.lean ====
/-
  The whole run of the idealized kernel program, with its result named. Every weakly fair execution terminates
  without a fault; at the end the result buffer holds what the last boundary of the program's fold through its host
  operations and its three kernels gives it, and the eight argument arrays are as launched.
-/
import proofs.«157974_j88450556494795_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the program's segments launched from any memory with zero counters; the last thread state holds every
    unscoped buffer at the last boundary's contents, read against the final state. -/
theorem run : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.EncRows.lean ====
/-
  The source projection, as the first kernel leaves it. The kernel multiplies the 2048 × 512 matrix of source rows,
  256 rows at a time, by the 512 × 640 weight, each product accumulated from zero; grid point t writes rows
  256·t … 256·t + 255 of the result. Whatever the two operand arrays hold when the kernel is entered, the result
  array ends as their plain product: entry (r, h) is Σ_k x(r, k) · w(k, h).
-/
import proofs.«157974_j88450556494795_2_alg».proof.Proof.Gen.KernelIdeal.Frame
import proofs.«157974_j88450556494795_2_alg».proof.Proof.LibPlainDot
import Idealize.ShloMosaic.Lib.Pipeline.Value

noncomputable section

open scoped BigOperators

namespace Cert.KernelIdeal.EncRows

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of the row matrix and the weight, entry by entry. -/
def prod (x : S2048x512.Idx → EReal) (w : S512x640.Idx → EReal) : S2048x640.Idx → EReal :=
  fun i => ∑ k : Fin 512, x (ix2 (i 0) k) * w (ix2 k (i 1))

/-- The two operand arrays as the kernel finds them: the rows and the weight. -/
abbrev rowsIn (c : Dev nD) : S2048x512.Idx → EReal := V c main_v2
abbrev weightIn (c : Dev nD) : S512x640.Idx → EReal := V c main_v0

theorem hz : (![0, 0] : Fin 2 → Nat) = fun _ => 0 := funext fun a => by fin_cases a <;> rfl

/-- One block's product: entry (r, h) of what a grid point stores is the sum over k of the loaded rows' entry (r, k)
    times the loaded weight's entry (k, h) — the accumulator starts at zero. -/
theorem pay_apply (x0 : Vec Ideal S256x512 .f32) (x1 : Vec Ideal S512x640 .f32) (r : Fin 256) (h : Fin 640) :
    k0_pay1 x0 x1 (ix2 r h) = ∑ k : Fin 512, x0 (ix2 r k) * x1 (ix2 k h) := by
  unfold k0_pay1
  rw [shapeCast_self, shapeCast_self]
  exact PlainDot.matmul_zero_apply (M := 256) (K := 512) (N := 640) (some .fp32) x0 x1 r h

/-- Where the blocks sit: the row block moves with the output block, the weight is always the whole array, and the
    blocks have full width. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the eight row blocks is some grid point's. -/
theorem idx_onto : ∀ q : Fin 8, ∃ t : Fin cfg0.N, win0_2.index t = ![q.val, 0] :=
  (by decide +kernel : ∀ q : Fin 8, ∃ t : Fin grid0.N, win0_2.index t = ![q.val, 0])

/-- What grid point t writes back is block t of the whole product. -/
theorem flushed_eq (c : Dev nD) (t : Fin cfg0.N) :
    (dat0 V c).flushed 2 t = ((cfg0.win 2).blk t).view.read (Elt Ideal) (prod (rowsIn V c) (weightIn V c)) := by
  show (cfg0.win 2).cut (grid0.coords t) ((dat0 V c).after 2 t) = _
  rw [after0_2]
  unfold out0_2
  rw [View.canon_unit_zero hz]
  simp only [View.ld_unit_zero (S := S256x512) hz, View.ld_unit_zero (S := S512x640) hz]
  obtain ⟨e0, e1, e2, e3, e4⟩ := idx_facts t
  funext j
  obtain ⟨r, h, rfl⟩ : ∃ (r : Fin 256) (h : Fin 640), j = ix2 r h := ⟨j 0, j 1, eq_ix2 j⟩
  refine (pay_apply (iblk0 V c 0 t) (iblk0 V c 1 t) r h).trans ?_
  show (∑ k : Fin 512, rowsIn V c (((cfg0.win 0).blk t).view.emb (ix2 r k)) * weightIn V c (((cfg0.win 1).blk t).view.emb (ix2 k h)))
     = ∑ k : Fin 512, rowsIn V c (ix2 ((((cfg0.win 2).blk t).view.emb (ix2 r h)) 0) k)
        * weightIn V c (ix2 k ((((cfg0.win 2).blk t).view.emb (ix2 r h)) 1))
  refine Finset.sum_congr rfl fun k _ => ?_
  have h0 : ((cfg0.win 0).blk t).view.emb (ix2 r k) = ix2 ((((cfg0.win 2).blk t).view.emb (ix2 r h)) 0) k := by
    funext a; apply Fin.ext
    match a with
    | ⟨0, _⟩ => show win0_0.index t (0 : Fin 2) * 256 + 1 * r.val = win0_2.index t (0 : Fin 2) * 256 + 1 * r.val; omega
    | ⟨1, _⟩ => show win0_0.index t (1 : Fin 2) * 512 + 1 * k.val = k.val; omega
  have h1 : ((cfg0.win 1).blk t).view.emb (ix2 k h) = ix2 k ((((cfg0.win 2).blk t).view.emb (ix2 r h)) 1) := by
    funext a; apply Fin.ext
    match a with
    | ⟨0, _⟩ => show win0_1.index t (0 : Fin 2) * 512 + 1 * k.val = k.val; omega
    | ⟨1, _⟩ => show win0_1.index t (1 : Fin 2) * 640 + 1 * h.val = win0_2.index t (1 : Fin 2) * 640 + 1 * h.val; omega
  rw [h0, h1]
  rfl

/-- An index of the result is in point t's block iff each coordinate is in the block's range on its axis. -/
theorem mem_blk (t : Fin cfg0.N) (i : S2048x640.Idx) :
    i ∈ ((cfg0.win 2).blk t).view.set ↔ ∀ a : Fin 2, win0_2.index t a * S256x640.size a ≤ (i a).val ∧ (i a).val < win0_2.index t a * S256x640.size a + S256x640.size a := by
  show i ∈ ((View.whole main_v3).slice (win0_2.rect t)).set ↔ _
  rw [View.set_slice_whole, Rect.mem_set_unit]
  exact Iff.rfl

/-- Every row of the result is in the block of the point that holds its 256-row group. -/
theorem cover (i : S2048x640.Idx) : ∃ t : Fin cfg0.N, (cfg0.win 2).flush t = true ∧ i ∈ ((cfg0.win 2).blk t).view.set := by
  have hi0 : (i 0).val < 2048 := (i 0).isLt
  have hi1 : (i 1).val < 640 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 640 ≤ (i 1).val ∧ (i 1).val < win0_2.index t (1 : Fin 2) * 640 + 640; omega

/-- The result array after the kernel: the product of the two operand arrays as the kernel found them. -/
theorem final (c : Dev nD) : (dat0 V c).arrAt 2 cfg0.N = prod (rowsIn V c) (weightIn V c) :=
  (dat0 V c).arrAt_eq_of_cover 2 _ (fun t _ => flushed_eq V c t) cover

end Cert.KernelIdeal.EncRows

end
-- ==== Proof.PredRows.lean ====
/-
  The target projection, as the second kernel leaves it. The kernel multiplies the 512 × 512 matrix of target rows,
  128 rows at a time, by the 512 × 640 weight, each product accumulated from zero; grid point t writes rows
  128·t … 128·t + 127 of the result. Whatever the two operand arrays hold when the kernel is entered, the result
  array ends as their plain product: entry (r, h) is Σ_k x(r, k) · w(k, h).
-/
import proofs.«157974_j88450556494795_2_alg».proof.Proof.Gen.KernelIdeal.Frame
import proofs.«157974_j88450556494795_2_alg».proof.Proof.LibPlainDot
import Idealize.ShloMosaic.Lib.Pipeline.Value

noncomputable section

open scoped BigOperators

namespace Cert.KernelIdeal.PredRows

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of the row matrix and the weight, entry by entry. -/
def prod (x : S512x512.Idx → EReal) (w : S512x640.Idx → EReal) : S512x640.Idx → EReal :=
  fun i => ∑ k : Fin 512, x (ix2 (i 0) k) * w (ix2 k (i 1))

/-- The two operand arrays as the kernel finds them: the rows and the weight. -/
abbrev rowsIn (c : Dev nD) : S512x512.Idx → EReal := V c main_v5
abbrev weightIn (c : Dev nD) : S512x640.Idx → EReal := V c main_v1

theorem hz : (![0, 0] : Fin 2 → Nat) = fun _ => 0 := funext fun a => by fin_cases a <;> rfl

/-- One block's product: entry (r, h) of what a grid point stores is the sum over k of the loaded rows' entry (r, k)
    times the loaded weight's entry (k, h) — the accumulator starts at zero. -/
theorem pay_apply (x0 : Vec Ideal S128x512 .f32) (x1 : Vec Ideal S512x640 .f32) (r : Fin 128) (h : Fin 640) :
    k1_pay1 x0 x1 (ix2 r h) = ∑ k : Fin 512, x0 (ix2 r k) * x1 (ix2 k h) := by
  unfold k1_pay1
  rw [shapeCast_self, shapeCast_self]
  exact PlainDot.matmul_zero_apply (M := 128) (K := 512) (N := 640) (some .fp32) x0 x1 r h

/-- Where the blocks sit: the row block moves with the output block, the weight is always the whole array, and the
    blocks have full width. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the four row blocks is some grid point's. -/
theorem idx_onto : ∀ q : Fin 4, ∃ t : Fin cfg1.N, win1_2.index t = ![q.val, 0] :=
  (by decide +kernel : ∀ q : Fin 4, ∃ t : Fin grid1.N, win1_2.index t = ![q.val, 0])

/-- What grid point t writes back is block t of the whole product. -/
theorem flushed_eq (c : Dev nD) (t : Fin cfg1.N) :
    (dat1 V c).flushed 2 t = ((cfg1.win 2).blk t).view.read (Elt Ideal) (prod (rowsIn V c) (weightIn V c)) := by
  show (cfg1.win 2).cut (grid1.coords t) ((dat1 V c).after 2 t) = _
  rw [after1_2]
  unfold out1_2
  rw [View.canon_unit_zero hz]
  simp only [View.ld_unit_zero (S := S128x512) hz, View.ld_unit_zero (S := S512x640) hz]
  obtain ⟨e0, e1, e2, e3, e4⟩ := idx_facts t
  funext j
  obtain ⟨r, h, rfl⟩ : ∃ (r : Fin 128) (h : Fin 640), j = ix2 r h := ⟨j 0, j 1, eq_ix2 j⟩
  refine (pay_apply (iblk1 V c 0 t) (iblk1 V c 1 t) r h).trans ?_
  show (∑ k : Fin 512, rowsIn V c (((cfg1.win 0).blk t).view.emb (ix2 r k)) * weightIn V c (((cfg1.win 1).blk t).view.emb (ix2 k h)))
     = ∑ k : Fin 512, rowsIn V c (ix2 ((((cfg1.win 2).blk t).view.emb (ix2 r h)) 0) k)
        * weightIn V c (ix2 k ((((cfg1.win 2).blk t).view.emb (ix2 r h)) 1))
  refine Finset.sum_congr rfl fun k _ => ?_
  have h0 : ((cfg1.win 0).blk t).view.emb (ix2 r k) = ix2 ((((cfg1.win 2).blk t).view.emb (ix2 r h)) 0) k := by
    funext a; apply Fin.ext
    match a with
    | ⟨0, _⟩ => show win1_0.index t (0 : Fin 2) * 128 + 1 * r.val = win1_2.index t (0 : Fin 2) * 128 + 1 * r.val; omega
    | ⟨1, _⟩ => show win1_0.index t (1 : Fin 2) * 512 + 1 * k.val = k.val; omega
  have h1 : ((cfg1.win 1).blk t).view.emb (ix2 k h) = ix2 k ((((cfg1.win 2).blk t).view.emb (ix2 r h)) 1) := by
    funext a; apply Fin.ext
    match a with
    | ⟨0, _⟩ => show win1_1.index t (0 : Fin 2) * 512 + 1 * k.val = k.val; omega
    | ⟨1, _⟩ => show win1_1.index t (1 : Fin 2) * 640 + 1 * h.val = win1_2.index t (1 : Fin 2) * 640 + 1 * h.val; omega
  rw [h0, h1]
  rfl

/-- An index of the result is in point t's block iff each coordinate is in the block's range on its axis. -/
theorem mem_blk (t : Fin cfg1.N) (i : S512x640.Idx) :
    i ∈ ((cfg1.win 2).blk t).view.set ↔ ∀ a : Fin 2, win1_2.index t a * S128x640.size a ≤ (i a).val ∧ (i a).val < win1_2.index t a * S128x640.size a + S128x640.size a := by
  show i ∈ ((View.whole main_v6).slice (win1_2.rect t)).set ↔ _
  rw [View.set_slice_whole, Rect.mem_set_unit]
  exact Iff.rfl

/-- Every row of the result is in the block of the point that holds its 128-row group. -/
theorem cover (i : S512x640.Idx) : ∃ t : Fin cfg1.N, (cfg1.win 2).flush t = true ∧ i ∈ ((cfg1.win 2).blk t).view.set := by
  have hi0 : (i 0).val < 512 := (i 0).isLt
  have hi1 : (i 1).val < 640 := (i 1).isLt
  obtain ⟨t, ht⟩ := idx_onto ⟨(i 0).val / 128, by omega⟩
  have q0 : win1_2.index t (0 : Fin 2) = (i 0).val / 128 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 640 ≤ (i 1).val ∧ (i 1).val < win1_2.index t (1 : Fin 2) * 640 + 640; omega

/-- The result array after the kernel: the product of the two operand arrays as the kernel found them. -/
theorem final (c : Dev nD) : (dat1 V c).arrAt 2 cfg1.N = prod (rowsIn V c) (weightIn V c) :=
  (dat1 V c).arrAt_eq_of_cover 2 _ (fun t _ => flushed_eq V c t) cover

end Cert.KernelIdeal.PredRows

end
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.HostChain.lean ====
/-
  The host operations between the three kernels, followed through the buffer contents at each boundary of the
  program. The first kernel is entered with the source encodings laid out as 2048 rows and the upper half of the
  stacked weight; the second with the target encodings laid out as 512 rows and the lower half of the weight. Their
  results, laid back out by batch, are the two projections of the specification. The third kernel is entered with
  those two arrays, the first bias, the second weight (its rounding is the identity on the extended reals) and the
  second bias.
-/
import proofs.«157974_j88450556494795_2_alg».proof.Proof.Gen.KernelIdeal.Frame
import proofs.«157974_j88450556494795_2_alg».proof.Proof.EncRows
import proofs.«157974_j88450556494795_2_alg».proof.Proof.PredRows
import proofs.«157974_j88450556494795_2_alg».proof.Proof.JoinerSpec
import proofs.«157974_j88450556494795_2_alg».proof.Proof.LibLayoutRead
import Idealize.ShloMosaic.Lib.Pipeline.Value
import Idealize.ShloMosaic.Lib.ValueLayout
import Idealize.ShloMosaic.Lib.StableHlo.Run

noncomputable section

open scoped BigOperators

namespace Cert.KernelIdeal.HostChain

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## Before the first kernel -/

/-- The first kernel's row operand: the source encodings with batch and position merged into 2048 rows. -/
theorem W1_v2 (c : Dev nD) :
    (W1 m ρ c (Proc.devRef .tc main_v2) : S2048x512.Idx → EReal)
      = shapeCast S2048x512 (m ((c : Thread nD τ).loc main_arg0)) shapeCasts_S8x256x512_S2048x512 := by
  show StableHlo.after hostOps0 (W0 m ρ c) (Proc.devRef .tc main_v2) = _
  dsimp only [hostOps0]
  after_results
  rfl

/-- The first kernel's weight operand: rows 0..511 of the stacked weight. -/
theorem W1_v0 (c : Dev nD) :
    (W1 m ρ c (Proc.devRef .tc main_v0) : S512x640.Idx → EReal)
      = extractStridedSlice S512x640 ![0, 0] (m ((c : Thread nD τ).loc main_arg4)) slices_S1024x640_S512x640_0_0 := by
  show StableHlo.after hostOps0 (W0 m ρ c) (Proc.devRef .tc main_v0) = _
  dsimp only [hostOps0]
  after_results

/-- Rows 512..1023 of the stacked weight, computed before the first kernel. -/
theorem W1_v1 (c : Dev nD) :
    (W1 m ρ c (Proc.devRef .tc main_v1) : S512x640.Idx → EReal)
      = extractStridedSlice S512x640 ![512, 0] (m ((c : Thread nD τ).loc main_arg4)) slices_S1024x640_S512x640_512_0 := by
  show StableHlo.after hostOps0 (W0 m ρ c) (Proc.devRef .tc main_v1) = _
  dsimp only [hostOps0]
  after_results

/-- An argument array is untouched by the first host operations. -/
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results

/-! ## After the first kernel, before the second -/

/-- The first kernel's result array: the product of its two operands. -/
theorem W2_v3 (c : Dev nD) :
    (W2 m ρ c (Proc.devRef .tc main_v3) : S2048x640.Idx → EReal)
      = EncRows.prod (W1 m ρ c (Proc.devRef .tc main_v2)) (W1 m ρ c (Proc.devRef .tc main_v0)) :=
  (W2_arr m ρ c 2).trans (EncRows.final (V1 m ρ) c)

/-- The second kernel's row operand: the target encodings with batch and position merged into 512 rows. -/
theorem W3_v5 (c : Dev nD) :
    (W3 m ρ c (Proc.devRef .tc main_v5) : S512x512.Idx → EReal)
      = shapeCast S512x512 (m ((c : Thread nD τ).loc main_arg2)) shapeCasts_S8x64x512_S512x512 := by
  show StableHlo.after hostOps1 (W2 m ρ c) (Proc.devRef .tc main_v5) = _
  dsimp only [hostOps1]
  after_results
  rw [W2_of_ne m ρ c main_arg2 (by decide), W1_arg2]
  rfl

/-- The second kernel's weight operand: rows 512..1023 of the stacked weight. -/
theorem W3_v1 (c : Dev nD) :
    (W3 m ρ c (Proc.devRef .tc main_v1) : S512x640.Idx → EReal)
      = extractStridedSlice S512x640 ![512, 0] (m ((c : Thread nD τ).loc main_arg4)) slices_S1024x640_S512x640_512_0 := by
  show StableHlo.after hostOps1 (W2 m ρ c) (Proc.devRef .tc main_v1) = _
  dsimp only [hostOps1]
  after_results
  rw [W2_of_ne m ρ c main_v1 (by decide), W1_v1]

/-- The source projection laid back out by batch. -/
theorem W3_v4 (c : Dev nD) :
    (W3 m ρ c (Proc.devRef .tc main_v4) : S8x256x640.Idx → EReal)
      = shapeCast S8x256x640 (W2 m ρ c (Proc.devRef .tc main_v3)) shapeCasts_S2048x640_S8x256x640 := by
  show StableHlo.after hostOps1 (W2 m ρ c) (Proc.devRef .tc main_v4) = _
  dsimp only [hostOps1]
  after_results
  rfl

theorem W3_arg5 (c : Dev nD) : W3 m ρ c (Proc.devRef .tc main_arg5) = m ((c : Thread nD τ).loc main_arg5) := by
  show StableHlo.after hostOps1 (W2 m ρ c) (Proc.devRef .tc main_arg5) = _
  dsimp only [hostOps1]
  after_results
  rw [W2_of_ne m ρ c main_arg5 (by decide), W1_arg5]
theorem W3_arg6 (c : Dev nD) : W3 m ρ c (Proc.devRef .tc main_arg6) = m ((c : Thread nD τ).loc main_arg6) := by
  show StableHlo.after hostOps1 (W2 m ρ c) (Proc.devRef .tc main_arg6) = _
  dsimp only [hostOps1]
  after_results
  rw [W2_of_ne m ρ c main_arg6 (by decide), W1_arg6]
theorem W3_arg7 (c : Dev nD) : W3 m ρ c (Proc.devRef .tc main_arg7) = m ((c : Thread nD τ).loc main_arg7) := by
  show StableHlo.after hostOps1 (W2 m ρ c) (Proc.devRef .tc main_arg7) = _
  dsimp only [hostOps1]
  after_results
  rw [W2_of_ne m ρ c main_arg7 (by decide), W1_arg7]

/-! ## After the second kernel, before the third -/

/-- The second kernel's result array: the product of its two operands. -/
theorem W4_v6 (c : Dev nD) :
    (W4 m ρ c (Proc.devRef .tc main_v6) : S512x640.Idx → EReal)
      = PredRows.prod (W3 m ρ c (Proc.devRef .tc main_v5)) (W3 m ρ c (Proc.devRef .tc main_v1)) :=
  (W4_arr m ρ c 2).trans (PredRows.final (V3 m ρ) c)

/-- The third kernel's first operand: the source projection by batch. -/
theorem W5_v4 (c : Dev nD) :
    (W5 m ρ c (Proc.devRef .tc main_v4) : S8x256x640.Idx → EReal)
      = shapeCast S8x256x640 (W2 m ρ c (Proc.devRef .tc main_v3)) shapeCasts_S2048x640_S8x256x640 := by
  show StableHlo.after hostOps2 (W4 m ρ c) (Proc.devRef .tc main_v4) = _
  dsimp only [hostOps2]
  after_results
  rw [W4_of_ne m ρ c main_v4 (by decide), W3_v4]

/-- The third kernel's second operand: the target projection laid back out by batch. -/
theorem W5_v7 (c : Dev nD) :
    (W5 m ρ c (Proc.devRef .tc main_v7) : S8x64x640.Idx → EReal)
      = shapeCast S8x64x640 (W4 m ρ c (Proc.devRef .tc main_v6)) shapeCasts_S512x640_S8x64x640 := by
  show StableHlo.after hostOps2 (W4 m ρ c) (Proc.devRef .tc main_v7) = _
  dsimp only [hostOps2]
  after_results
  rfl

/-- The third kernel's weight operand: the second weight; its rounding is the identity on the extended reals. -/
theorem W5_v8 (c : Dev nD) :
    (W5 m ρ c (Proc.devRef .tc main_v8) : S640x1024.Idx → EReal) = m ((c : Thread nD τ).loc main_arg6) := by
  show StableHlo.after hostOps2 (W4 m ρ c) (Proc.devRef .tc main_v8) = _
  dsimp only [hostOps2]
  after_results
  rw [W4_of_ne m ρ c main_arg6 (by decide), W3_arg6]
  rfl

theorem W5_arg5 (c : Dev nD) : W5 m ρ c (Proc.devRef .tc main_arg5) = m ((c : Thread nD τ).loc main_arg5) := by
  show StableHlo.after hostOps2 (W4 m ρ c) (Proc.devRef .tc main_arg5) = _
  dsimp only [hostOps2]
  after_results
  rw [W4_of_ne m ρ c main_arg5 (by decide), W3_arg5]
theorem W5_arg7 (c : Dev nD) : W5 m ρ c (Proc.devRef .tc main_arg7) = m ((c : Thread nD τ).loc main_arg7) := by
  show StableHlo.after hostOps2 (W4 m ρ c) (Proc.devRef .tc main_arg7) = _
  dsimp only [hostOps2]
  after_results
  rw [W4_of_ne m ρ c main_arg7 (by decide), W3_arg7]

/-! ## The two projections, entry by entry -/

/-- The third kernel's first operand at (b, t, h) is the specification's source projection: row b·256 + t of the
    first kernel's product, whose row operand there is the source encoding at (b, t) and whose weight is the upper
    half of the stacked weight. -/
theorem enc_at (c : Dev nD) (b : Fin 8) (t : Fin 256) (h : Fin 640) :
    (W5 m ρ c (Proc.devRef .tc main_v4) : S8x256x640.Idx → EReal) (ix3 b t h)
      = Joiner.enc (m ((c : Thread nD τ).loc main_arg0)) (m ((c : Thread nD τ).loc main_arg4)) b t h := by
  rw [W5_v4]
  refine (LayoutRead.shapeCast_mc_abc_apply _ _ b t h (⟨b.val * 256 + t.val, by omega⟩ : Fin 2048) rfl).trans ?_
  rw [W2_v3, W1_v2, W1_v0]
  unfold Joiner.enc EncRows.prod
  change (_ : EReal) = _
  refine Finset.sum_congr rfl fun k _ => ?_
  refine congrArg₂ (· * ·) ?_ ?_
  · exact LayoutRead.shapeCast_abc_mc_apply _ _ b t k (⟨b.val * 256 + t.val, by omega⟩ : Fin 2048) rfl
  · exact slice2_axis0_apply 0 _ _ k h (⟨k.val, by omega⟩ : Fin 1024) (by show k.val = 0 + k.val; omega)

/-- The third kernel's second operand at (b, u, h) is the specification's target projection. -/
theorem pred_at (c : Dev nD) (b : Fin 8) (u : Fin 64) (h : Fin 640) :
    (W5 m ρ c (Proc.devRef .tc main_v7) : S8x64x640.Idx → EReal) (ix3 b u h)
      = Joiner.pred (m ((c : Thread nD τ).loc main_arg2)) (m ((c : Thread nD τ).loc main_arg4)) b u h := by
  rw [W5_v7]
  refine (LayoutRead.shapeCast_mc_abc_apply _ _ b u h (⟨b.val * 64 + u.val, by omega⟩ : Fin 512) rfl).trans ?_
  rw [W4_v6, W3_v5, W3_v1]
  unfold Joiner.pred PredRows.prod
  change (_ : EReal) = _
  refine Finset.sum_congr rfl fun k _ => ?_
  refine congrArg₂ (· * ·) ?_ ?_
  · exact LayoutRead.shapeCast_abc_mc_apply _ _ b u k (⟨b.val * 64 + u.val, by omega⟩ : Fin 512) rfl
  · exact slice2_axis0_apply 512 _ _ k h (⟨512 + k.val, by omega⟩ : Fin 1024) rfl

end Cert.KernelIdeal.HostChain

end
-- ==== Proof.LibUnitAxisRead.lean ====
/-
  Layout operations around a unit axis, read at an index written by its coordinates: a matrix cast to a slab with a
  unit middle axis, a vector cast to a slab with two leading unit axes, and the two broadcasts of a slab along one
  unit axis (the middle one, or the leading one). Each is the library's general read-at-an-index lemma with its
  per-axis side condition discharged once.
-/
import Idealize.ShloMosaic.Lib.Pipeline.Value
import Idealize.ShloMosaic.Lib.ValueIdx

noncomputable section

namespace Idealize.ShloMosaic.UnitAxisRead

open Idealize.ShloMosaic Idealize.ShloMosaic.ValueIdx

variable {α : Type}

/-- An [a, c] array cast to [a, 1, c] reads, at (i, u, k), the operand at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A [c] vector cast to [1, 1, c] reads, at (u, v, k), the operand at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- A broadcast of an [a, 1, c] slab along its unit middle axis reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) :=
  broadcastTo_apply v h _ _ (by
    intro d
    match d with
    | ⟨0, _⟩ =>
      show i.val = if a = 1 then 0 else i.val
      split
      · omega
      · rfl
    | ⟨1, _⟩ => rfl
    | ⟨2, _⟩ =>
      show k.val = if c = 1 then 0 else k.val
      split
      · omega
      · rfl)

/-- A broadcast of a [1, b, c] slab along its unit leading axis reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) :=
  broadcastTo_apply v h _ _ (by
    intro d
    match d with
    | ⟨0, _⟩ => rfl
    | ⟨1, _⟩ =>
      show j.val = if b = 1 then 0 else j.val
      split
      · omega
      · rfl
    | ⟨2, _⟩ =>
      show k.val = if c = 1 then 0 else k.val
      split
      · omega
      · rfl)

end Idealize.ShloMosaic.UnitAxisRead

end
-- ==== Proof.FusedBlocks.lean ====
/-
  The output layer, as the third kernel leaves it. Grid point (b, s) loads rows 32·s … 32·s + 31 of batch b's source
  projection, all 64 rows of batch b's target projection, the first bias, the second weight and the second bias, and
  stores the 32 × 64 × 1024 block
    (t', u, o) ↦ Σ_h max(enc(t', h) + pred(u, h) + b1(h), 0) · W2(h, o) + b2(o)
  at batch b, source rows 32·s …. The 64 blocks tile the 8 × 256 × 64 × 1024 result, so whatever the five operand
  arrays hold when the kernel is entered, the result array ends as that one function of them, entry by entry.
-/
import proofs.«157974_j88450556494795_2_alg».proof.Proof.Gen.KernelIdeal.Frame
import proofs.«157974_j88450556494795_2_alg».proof.Proof.JoinerSpec
import proofs.«157974_j88450556494795_2_alg».proof.Proof.LibPlainDot
import proofs.«157974_j88450556494795_2_alg».proof.Proof.LibLayoutRead
import proofs.«157974_j88450556494795_2_alg».proof.Proof.LibUnitAxisRead
import Idealize.ShloMosaic.Lib.Pipeline.Value
import Idealize.ShloMosaic.Lib.ValueLayout

noncomputable section

open scoped BigOperators

namespace Cert.KernelIdeal.FusedBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output layer over the two projection arrays, the biases and the second weight, entry by entry. -/
def fused (e : S8x256x640.Idx → EReal) (p : S8x64x640.Idx → EReal) (b1 : S640.Idx → EReal)
    (w2 : S640x1024.Idx → EReal) (b2 : S1024.Idx → EReal) : S8x256x64x1024.Idx → EReal :=
  fun i => Joiner.outAt (fun b t h => e (ix3 b t h)) (fun b u h => p (ix3 b u h)) b1 w2 b2 (i 0) (i 1) (i 2) (i 3)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One block: entry (t', u, o) of what a grid point stores, from the five loaded blocks. The 32 × 64 hidden rows
    are laid end to end for one product with the second weight (row t'·64 + u), accumulated from zero, and laid back;
    the rounding of the hidden rows before the product is the identity on the extended reals. -/
theorem pay_apply (x0 : Vec Ideal S1x32x640 .f32) (x1 : Vec Ideal S1x64x640 .f32) (x2 : Vec Ideal S640 .f32)
    (x3 : Vec Ideal S640x1024 .bf16) (x4 : Vec Ideal S1024 .f32) (tt : Fin 32) (u : Fin 64) (o : Fin 1024) :
    k2_pay1 x0 x1 x2 x3 x4 (ix4 (0 : Fin 1) tt u o)
      = (∑ h : Fin 640, Joiner.hidden (x0 (ix3 (0 : Fin 1) tt h)) (x1 (ix3 (0 : Fin 1) u h)) (x2 (ix1 h)) * x3 (ix2 h o))
          + x4 (ix1 o) := by
  unfold k2_pay1
  refine (shapeCast_abc_1abc_apply _ _ (0 : Fin 1) tt u o).trans ?_
  refine (addf_apply _ _ _).trans ?_
  refine congrArg₂ (· + ·) ?_ ?_
  · refine (LayoutRead.shapeCast_mc_abc_apply _ _ tt u o (⟨tt.val * 64 + u.val, by omega⟩ : Fin 2048) rfl).trans ?_
    refine (PlainDot.matmul_zero_apply (M := 2048) (K := 640) (N := 1024) none _ _ _ o).trans ?_
    refine Finset.sum_congr rfl fun h _ => ?_
    refine congrArg₂ (· * ·) ?_ ?_
    · refine (LayoutRead.shapeCast_abc_mc_apply _ _ tt u h (⟨tt.val * 64 + u.val, by omega⟩ : Fin 2048) rfl).trans ?_
      refine (truncf_apply (ψ := .bf16) (φ := .f32) _ bitsLt_bf16_f32 (ix3 tt u h)).trans ?_
      refine (maximumf_apply _ _ _).trans ?_
      unfold Joiner.hidden
      refine congrArg₂ max ?_ rfl
      refine (addf_apply _ _ _).trans ?_
      refine congrArg₂ (· + ·) ?_ ?_
      · refine (addf_apply _ _ _).trans ?_
        refine congrArg₂ (· + ·) ?_ ?_
        · exact (UnitAxisRead.broadcastTo_a1c_abc_apply _ _ tt u h).trans
            ((UnitAxisRead.shapeCast_ac_a1c_apply _ _ tt (0 : Fin 1) h).trans (shapeCast_1ab_ab_apply _ _ tt h))
        · exact (UnitAxisRead.broadcastTo_1bc_abc_apply _ _ tt u h).trans
            ((shapeCast_ab_1ab_apply _ _ (0 : Fin 1) u h).trans (shapeCast_1ab_ab_apply _ _ u h))
      · exact (LayoutRead.broadcastTo_11c_abc_apply _ _ tt u h).trans
          (UnitAxisRead.shapeCast_c_11c_apply _ _ (0 : Fin 1) (0 : Fin 1) h)
    · exact congrFun (shapeCast_self x3 _) _
  · exact (LayoutRead.broadcastTo_11c_abc_apply _ _ tt u o).trans
      (UnitAxisRead.shapeCast_c_11c_apply _ _ (0 : Fin 1) (0 : Fin 1) o)

/-- Where the blocks sit: the source block moves with the output block on the batch and source-row axes, the target
    block on the batch axis; the biases and the weight are whole arrays; the output block spans all target rows and
    channels. -/
theorem idx_facts : ∀ t : Fin cfg2.N,
    win2_0.index t (0 : Fin 3) = win2_5.index t (0 : Fin 4) ∧ win2_0.index t (1 : Fin 3) = win2_5.index t (1 : Fin 4)
    ∧ win2_0.index t (2 : Fin 3) = 0
    ∧ win2_1.index t (0 : Fin 3) = win2_5.index t (0 : Fin 4) ∧ win2_1.index t (1 : Fin 3) = 0 ∧ win2_1.index t (2 : Fin 3) = 0
    ∧ win2_2.index t (0 : Fin 1) = 0
    ∧ win2_3.index t (0 : Fin 2) = 0 ∧ win2_3.index t (1 : Fin 2) = 0
    ∧ win2_4.index t (0 : Fin 1) = 0
    ∧ win2_5.index t (2 : Fin 4) = 0 ∧ win2_5.index t (3 : Fin 4) = 0 :=
  (by decide +kernel : ∀ t : Fin grid2.N, _)

/-- Every (batch, 32-row group) pair is some grid point's output block. -/
theorem idx_onto : ∀ (q0 : Fin 8) (q1 : Fin 8), ∃ t : Fin cfg2.N, win2_5.index t = ![q0.val, q1.val, 0, 0] :=
  (by decide +kernel : ∀ (q0 : Fin 8) (q1 : Fin 8), ∃ t : Fin grid2.N, win2_5.index t = ![q0.val, q1.val, 0, 0])

/-- What grid point t writes back is block t of the output layer over the operand arrays as the kernel found them. -/
theorem flushed_eq (c : Dev nD) (t : Fin cfg2.N) :
    (dat2 V c).flushed 5 t = ((cfg2.win 5).blk t).view.read (Elt Ideal)
      (fused (V c main_v4) (V c main_v7) (V c main_arg5) (V c main_v8) (V c main_arg7)) := by
  show (cfg2.win 5).cut (grid2.coords t) ((dat2 V c).after 5 t) = _
  rw [after2_5]
  unfold out2_5
  rw [View.canon_unit_zero hz4]
  simp only [View.ld_unit_zero (S := S1x32x640) hz3, View.ld_unit_zero (S := S1x64x640) hz3,
    View.ld_unit_zero (S := S640) hz1, View.ld_unit_zero (S := S640x1024) hz2, View.ld_unit_zero (S := S1024) hz1]
  obtain ⟨e00, e01, e02, e10, e11, e12, e20, e30, e31, e40, e52, e53⟩ := idx_facts t
  funext j
  obtain ⟨z, tt, u, o, rfl⟩ : ∃ (z : Fin 1) (tt : Fin 32) (u : Fin 64) (o : Fin 1024), j = ix4 z tt u o :=
    ⟨j 0, j 1, j 2, j 3, eq_ix4 j⟩
  obtain rfl : z = 0 := Subsingleton.elim _ _
  refine (pay_apply (iblk2 V c 0 t) (iblk2 V c 1 t) (iblk2 V c 2 t) (iblk2 V c 3 t) (iblk2 V c 4 t) tt u o).trans ?_
  show (∑ h : Fin 640, Joiner.hidden (V c main_v4 (((cfg2.win 0).blk t).view.emb (ix3 (0 : Fin 1) tt h)))
          (V c main_v7 (((cfg2.win 1).blk t).view.emb (ix3 (0 : Fin 1) u h)))
          (V c main_arg5 (((cfg2.win 2).blk t).view.emb (ix1 h)))
        * V c main_v8 (((cfg2.win 3).blk t).view.emb (ix2 h o)))
      + V c main_arg7 (((cfg2.win 4).blk t).view.emb (ix1 o))
    = (∑ h : Fin 640, Joiner.hidden
          (V c main_v4 (ix3 ((((cfg2.win 5).blk t).view.emb (ix4 (0 : Fin 1) tt u o)) 0) ((((cfg2.win 5).blk t).view.emb (ix4 (0 : Fin 1) tt u o)) 1) h))
          (V c main_v7 (ix3 ((((cfg2.win 5).blk t).view.emb (ix4 (0 : Fin 1) tt u o)) 0) ((((cfg2.win 5).blk t).view.emb (ix4 (0 : Fin 1) tt u o)) 2) h))
          (V c main_arg5 (ix1 h))
        * V c main_v8 (ix2 h ((((cfg2.win 5).blk t).view.emb (ix4 (0 : Fin 1) tt u o)) 3)))
      + V c main_arg7 (ix1 ((((cfg2.win 5).blk t).view.emb (ix4 (0 : Fin 1) tt u o)) 3))
  have h4 : ((cfg2.win 4).blk t).view.emb (ix1 o) = ix1 ((((cfg2.win 5).blk t).view.emb (ix4 (0 : Fin 1) tt u o)) 3) := by
    funext a; apply Fin.ext
    match a with
    | ⟨0, _⟩ => show win2_4.index t (0 : Fin 1) * 1024 + 1 * o.val = win2_5.index t (3 : Fin 4) * 1024 + 1 * o.val; omega
  rw [h4]
  refine congrArg (· + _) (Finset.sum_congr rfl fun h _ => ?_)
  have h0 : ((cfg2.win 0).blk t).view.emb (ix3 (0 : Fin 1) tt h)
      = ix3 ((((cfg2.win 5).blk t).view.emb (ix4 (0 : Fin 1) tt u o)) 0) ((((cfg2.win 5).blk t).view.emb (ix4 (0 : Fin 1) tt u o)) 1) h := by
    funext a; apply Fin.ext
    match a with
    | ⟨0, _⟩ => show win2_0.index t (0 : Fin 3) * 1 + 1 * 0 = win2_5.index t (0 : Fin 4) * 1 + 1 * 0; omega
    | ⟨1, _⟩ => show win2_0.index t (1 : Fin 3) * 32 + 1 * tt.val = win2_5.index t (1 : Fin 4) * 32 + 1 * tt.val; omega
    | ⟨2, _⟩ => show win2_0.index t (2 : Fin 3) * 640 + 1 * h.val = h.val; omega
  have h1 : ((cfg2.win 1).blk t).view.emb (ix3 (0 : Fin 1) u h)
      = ix3 ((((cfg2.win 5).blk t).view.emb (ix4 (0 : Fin 1) tt u o)) 0) ((((cfg2.win 5).blk t).view.emb (ix4 (0 : Fin 1) tt u o)) 2) h := by
    funext a; apply Fin.ext
    match a with
    | ⟨0, _⟩ => show win2_1.index t (0 : Fin 3) * 1 + 1 * 0 = win2_5.index t (0 : Fin 4) * 1 + 1 * 0; omega
    | ⟨1, _⟩ => show win2_1.index t (1 : Fin 3) * 64 + 1 * u.val = win2_5.index t (2 : Fin 4) * 64 + 1 * u.val; omega
    | ⟨2, _⟩ => show win2_1.index t (2 : Fin 3) * 640 + 1 * h.val = h.val; omega
  have h2 : ((cfg2.win 2).blk t).view.emb (ix1 h) = ix1 h := by
    funext a; apply Fin.ext
    match a with
    | ⟨0, _⟩ => show win2_2.index t (0 : Fin 1) * 640 + 1 * h.val = h.val; omega
  have h3 : ((cfg2.win 3).blk t).view.emb (ix2 h o) = ix2 h ((((cfg2.win 5).blk t).view.emb (ix4 (0 : Fin 1) tt u o)) 3) := by
    funext a; apply Fin.ext
    match a with
    | ⟨0, _⟩ => show win2_3.index t (0 : Fin 2) * 640 + 1 * h.val = h.val; omega
    | ⟨1, _⟩ => show win2_3.index t (1 : Fin 2) * 1024 + 1 * o.val = win2_5.index t (3 : Fin 4) * 1024 + 1 * o.val; omega
  rw [h0, h1, h2, h3]
  rfl

/-- An index of the result is in point t's block iff each coordinate is in the block's range on its axis. -/
theorem mem_blk (t : Fin cfg2.N) (i : S8x256x64x1024.Idx) :
    i ∈ ((cfg2.win 5).blk t).view.set ↔ ∀ a : Fin 4, win2_5.index t a * S1x32x64x1024.size a ≤ (i a).val ∧ (i a).val < win2_5.index t a * S1x32x64x1024.size a + S1x32x64x1024.size a := by
  show i ∈ ((View.whole main_v9).slice (win2_5.rect t)).set ↔ _
  rw [View.set_slice_whole, Rect.mem_set_unit]
  exact Iff.rfl

/-- Every entry of the result is in the block of the point that holds its batch and its 32-row group. -/
theorem cover (i : S8x256x64x1024.Idx) : ∃ t : Fin cfg2.N, (cfg2.win 5).flush t = true ∧ i ∈ ((cfg2.win 5).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win2_5.index t (0 : Fin 4) = (i 0).val := congrFun ht 0
  have q1 : win2_5.index t (1 : Fin 4) = (i 1).val / 32 := congrFun ht 1
  have q2 : win2_5.index t (2 : Fin 4) = 0 := congrFun ht 2
  have q3 : win2_5.index t (3 : Fin 4) = 0 := congrFun ht 3
  refine ⟨t, flush2_5 t, ?_⟩
  rw [mem_blk]
  intro a
  match a with
  | ⟨0, _⟩ => show win2_5.index t (0 : Fin 4) * 1 ≤ (i 0).val ∧ (i 0).val < win2_5.index t (0 : Fin 4) * 1 + 1; omega
  | ⟨1, _⟩ => show win2_5.index t (1 : Fin 4) * 32 ≤ (i 1).val ∧ (i 1).val < win2_5.index t (1 : Fin 4) * 32 + 32; omega
  | ⟨2, _⟩ => show win2_5.index t (2 : Fin 4) * 64 ≤ (i 2).val ∧ (i 2).val < win2_5.index t (2 : Fin 4) * 64 + 64; omega
  | ⟨3, _⟩ => show win2_5.index t (3 : Fin 4) * 1024 ≤ (i 3).val ∧ (i 3).val < win2_5.index t (3 : Fin 4) * 1024 + 1024; omega

/-- The result array after the kernel: the output layer over the five operand arrays as the kernel found them. -/
theorem final (c : Dev nD) : (dat2 V c).arrAt 5 cfg2.N
    = fused (V c main_v4) (V c main_v7) (V c main_arg5) (V c main_v8) (V c main_arg7) :=
  (dat2 V c).arrAt_eq_of_cover 5 _ (fun t _ => flushed_eq V c t) cover

end Cert.KernelIdeal.FusedBlocks

end
-- ==== Proof.KernelValue.lean ====
/-
  The kernel program's result as a function of its arguments. The last host operation merges the three leading axes
  of the third kernel's result array; that array is the output layer over the two projection arrays, the biases and
  the second weight as the third kernel found them, and those are the specification's projections and the argument
  arrays themselves. So the result is the joint network of the arguments with its leading axes merged into rows.
-/
import proofs.«157974_j88450556494795_2_alg».proof.Proof.Gen.KernelIdeal.Frame
import proofs.«157974_j88450556494795_2_alg».proof.Proof.HostChain
import proofs.«157974_j88450556494795_2_alg».proof.Proof.FusedBlocks
import proofs.«157974_j88450556494795_2_alg».proof.Proof.JoinerSpec
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The output layer over the third kernel's operands is the joint network of the arguments. -/
theorem fused_eq (c : Dev nD) :
    FusedBlocks.fused (W5 m ρ c (Proc.devRef .tc main_v4)) (W5 m ρ c (Proc.devRef .tc main_v7))
        (W5 m ρ c (Proc.devRef .tc main_arg5)) (W5 m ρ c (Proc.devRef .tc main_v8)) (W5 m ρ c (Proc.devRef .tc main_arg7))
      = Joiner.joint (m ((c : Thread nD τ).loc main_arg0)) (m ((c : Thread nD τ).loc main_arg2))
          (m ((c : Thread nD τ).loc main_arg4)) (m ((c : Thread nD τ).loc main_arg5))
          (m ((c : Thread nD τ).loc main_arg6)) (m ((c : Thread nD τ).loc main_arg7)) := by
  have hE : (fun (b : Fin 8) (t : Fin 256) (h : Fin 640) =>
        (W5 m ρ c (Proc.devRef .tc main_v4) : S8x256x640.Idx → EReal) (ix3 b t h))
      = Joiner.enc (m ((c : Thread nD τ).loc main_arg0)) (m ((c : Thread nD τ).loc main_arg4)) :=
    funext fun b => funext fun t => funext fun h => HostChain.enc_at m ρ c b t h
  have hP : (fun (b : Fin 8) (u : Fin 64) (h : Fin 640) =>
        (W5 m ρ c (Proc.devRef .tc main_v7) : S8x64x640.Idx → EReal) (ix3 b u h))
      = Joiner.pred (m ((c : Thread nD τ).loc main_arg2)) (m ((c : Thread nD τ).loc main_arg4)) :=
    funext fun b => funext fun u => funext fun h => HostChain.pred_at m ρ c b u h
  funext i
  obtain ⟨b, t, u, o, rfl⟩ : ∃ (b : Fin 8) (t : Fin 256) (u : Fin 64) (o : Fin 1024), i = ix4 b t u o :=
    ⟨i 0, i 1, i 2, i 3, eq_ix4 i⟩
  rw [Joiner.joint_ix4]
  show Joiner.outAt (fun (b : Fin 8) (t : Fin 256) (h : Fin 640) =>
        (W5 m ρ c (Proc.devRef .tc main_v4) : S8x256x640.Idx → EReal) (ix3 b t h))
      (fun (b : Fin 8) (u : Fin 64) (h : Fin 640) =>
        (W5 m ρ c (Proc.devRef .tc main_v7) : S8x64x640.Idx → EReal) (ix3 b u h))
      (W5 m ρ c (Proc.devRef .tc main_arg5)) (W5 m ρ c (Proc.devRef .tc main_v8)) (W5 m ρ c (Proc.devRef .tc main_arg7))
      b t u o = _
  rw [hE, hP, HostChain.W5_arg5, HostChain.W5_v8, HostChain.W5_arg7]

/-- The result buffer at the end of the program's fold: the joint network of the arguments, its leading axes merged. -/
theorem value (c : Dev nD) :
    (W7 m ρ c (Proc.devRef .tc main_v10) : S131072x1024.Idx → EReal)
      = shapeCast S131072x1024 (Joiner.joint (m ((c : Thread nD τ).loc main_arg0)) (m ((c : Thread nD τ).loc main_arg2))
          (m ((c : Thread nD τ).loc main_arg4)) (m ((c : Thread nD τ).loc main_arg5))
          (m ((c : Thread nD τ).loc main_arg6)) (m ((c : Thread nD τ).loc main_arg7)))
        shapeCasts_S8x256x64x1024_S131072x1024 := by
  have h9 : (W6 m ρ c (Proc.devRef .tc main_v9) : S8x256x64x1024.Idx → EReal)
      = Joiner.joint (m ((c : Thread nD τ).loc main_arg0)) (m ((c : Thread nD τ).loc main_arg2))
          (m ((c : Thread nD τ).loc main_arg4)) (m ((c : Thread nD τ).loc main_arg5))
          (m ((c : Thread nD τ).loc main_arg6)) (m ((c : Thread nD τ).loc main_arg7)) :=
    ((W6_arr m ρ c 5).trans (FusedBlocks.final (V5 m ρ) c)).trans (fused_eq m ρ c)
  show StableHlo.after hostOps3 (W6 m ρ c) (Proc.devRef .tc main_v10) = _
  dsimp only [hostOps3]
  after_results
  rw [h9]
  rfl

end Cert.KernelIdeal.KernelValue

end
-- ==== Proof.lean ====
/- The joint network of a transducer, computed two ways, is one function of its arguments over the extended reals.

   Both programs compute, for batch b, source position t, target position u and output channel o,
     Σ_h max(enc(b,t,h) + pred(b,u,h) + b1(h), 0) · W2(h,o) + b2(o),
   where enc and pred are the source and target encodings contracted with the upper and lower halves of the stacked
   first weight, and return it with the three leading axes merged into 131072 rows, beside the two length vectors
   unchanged. The reference does it with whole-array contractions. The kernel program does it with three kernels: two
   row-blocked products for the projections (each block's product accumulated from zero, the blocks tiling the rows)
   and a third that, per batch and per group of 32 source rows, forms the hidden rows, lays them end to end, multiplies
   them by the second weight in one product and adds the second bias; the roundings to a shorter float format on the
   way into that product are the identity on the extended reals. A sum over an axis does not depend on how the rows
   around it are tiled or laid out, so the two results agree entry by entry; no finiteness of the inputs is used.

   The modules: JoinerSpec (the function), RefJoint (the reference computes it), EncRows / PredRows / FusedBlocks (what
   each kernel leaves in its result array, from its operands), HostChain (the operands of each kernel from the
   arguments, through the reshapes and slices between the kernels), KernelValue (the kernel program's result),
   KernelRun (the kernel program's run with its result named). The frames are the generated ones; the idealization
   rewrote nothing, so there is nothing to preserve beyond the program's own text. -/
import proofs.«157974_j88450556494795_2_alg».proof.Defs
import proofs.«157974_j88450556494795_2_alg».proof.Proof.Gen.Kernel
import proofs.«157974_j88450556494795_2_alg».proof.Proof.Gen.Kernel.Skeleton
import proofs.«157974_j88450556494795_2_alg».proof.Proof.Gen.Kernel.Launch
import proofs.«157974_j88450556494795_2_alg».proof.Proof.Gen.Kernel.Points
import proofs.«157974_j88450556494795_2_alg».proof.Proof.Gen.Kernel.Frame
import proofs.«157974_j88450556494795_2_alg».proof.Proof.Gen.KernelIdeal
import proofs.«157974_j88450556494795_2_alg».proof.Proof.Gen.KernelIdeal.Skeleton
import proofs.«157974_j88450556494795_2_alg».proof.Proof.Gen.KernelIdeal.Launch
import proofs.«157974_j88450556494795_2_alg».proof.Proof.Gen.KernelIdeal.Points
import proofs.«157974_j88450556494795_2_alg».proof.Proof.Gen.KernelIdeal.Frame
import proofs.«157974_j88450556494795_2_alg».proof.Proof.Gen.ReferenceIdeal
import proofs.«157974_j88450556494795_2_alg».proof.Proof.Gen.ReferenceIdeal.Run
import proofs.«157974_j88450556494795_2_alg».proof.Proof.Gen.ReferenceIdeal.Read
import proofs.«157974_j88450556494795_2_alg».proof.Proof.Gen.Pre_finite_inputs
import proofs.«157974_j88450556494795_2_alg».proof.Proof.JoinerSpec
import proofs.«157974_j88450556494795_2_alg».proof.Proof.RefJoint
import proofs.«157974_j88450556494795_2_alg».proof.Proof.KernelRun
import proofs.«157974_j88450556494795_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run keeps its arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From memories agreeing on the arguments both programs end with the joint network of the arguments, its leading
    axes merged into rows, and with the two length vectors as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, (θ_run Cert.KernelIdeal.defs _ _).mono (fun r h c =>
      ⟨(h c).1.trans (Cert.KernelIdeal.KernelValue.value m ρ c), (h c).2.2.1, (h c).2.2.2.2.1, (h c).2⟩)
      (Cert.KernelIdeal.Whole.run (F := Ideal) m ρ), ?_⟩
  refine (θ_run Cert.ReferenceIdeal.defs _ _).mono (fun r h c => ⟨?_, ?_, ?_, (h c).2.2.2⟩)
    (Cert.ReferenceIdeal.Value.run (F := Ideal) m' ρ')
  · refine (h c).1.trans ((Cert.ReferenceIdeal.Read.val_main_v17_eq _ _ _ _ _ _).trans ?_)
    rw [Cert.ReferenceIdeal.RefJoint.result_eq, (hagree c).1, (hagree c).2.2.1, (hagree c).2.2.2.2.1,
      (hagree c).2.2.2.2.2.1, (hagree c).2.2.2.2.2.2.1, (hagree c).2.2.2.2.2.2.2]
  · exact (h c).2.1.trans (hagree c).2.1
  · exact (h c).2.2.1.trans (hagree c).2.2.2.1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
